-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_cst)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_cst) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_cst_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  main_v18

def fn {F : FTy → Type} [FloatOps F] (main_arg0 : FVec F S8192x2048 .f32) (main_arg1 : FVec F S8192x2048 .f32) (main_arg2 : FVec F S2048x2048 .f32) (main_arg3 : FVec F S2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_v13 main_v16
-- ==== Kernel.lean ====
abbrev S8192x2048 : Shape := ⟨2, ![8192, 2048]⟩
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S_ : Shape := ⟨0, ![]⟩

abbrev nBuf : Space → Nat
  | .hbm => 10
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048x2048, .f32⟩
  | .hbm, ⟨3, _⟩ => ⟨S2048, .f32⟩
  | .hbm, ⟨4, _⟩ => ⟨S2048x2048, .bf16⟩
  | .hbm, ⟨5, _⟩ => ⟨S2048x2048, .bf16⟩
  | .hbm, ⟨6, _⟩ => ⟨S1x2048, .f32⟩
  | .hbm, ⟨7, _⟩ => ⟨S8192x2048, .f32⟩
  | .hbm, ⟨8, _⟩ => ⟨S8192x2048, .f32⟩
  | .hbm, ⟨9, _⟩ => ⟨S_, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S2048x2048, .bf16⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_cst : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bitsLt_bf16_f32 : FTy.bits .bf16 < FTy.bits .f32
  transposes_S2048x2048_S2048x2048_1_0 : S2048x2048.Transposes [1, 0] S2048x2048
  shapeCasts_S2048_S1x2048 : S2048.ShapeCasts S1x2048
  inb_S256x2048_S256x2048_0_0 : ∀ a, (![0, 0] : Fin 2 → Nat) a + S256x2048.size a ≤ S256x2048.size a
  h_S256x2048 : 0 < S256x2048.numel
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  reduces_S256x2048_S256 : S256x2048.Reduces [1] S256
  shapeCasts_S256_S256x1 : S256.ShapeCasts S256x1
  broadcasts_S256x1_S256x2048 : S256x1.Broadcasts S256x2048
  dot_S256x2048_S2048x2048_S256x2048_1_0_0_1_n_n_wf : DotDims.WF S256x2048 S2048x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S8192x2048.size a
  hwx0_0 : ∀ i : grid0.Coords, EltTy.bits .f32 = 32 ∨ (Rect.block (s := S8192x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S8192x2048.size a
  hwx0_1 : ∀ i : grid0.Coords, EltTy.bits .f32 = 32 ∨ (Rect.block (s := S8192x2048) S256x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S2048x2048.size a
  hwx0_2 : ∀ i : grid0.Coords, EltTy.bits .bf16 = 32 ∨ (Rect.block (s := S2048x2048) S2048x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x2048.size a ≤ S8192x2048.size a
  hwx0_4 : ∀ i : grid0.Coords, EltTy.bits .f32 = 32 ∨ (Rect.block (s := S8192x2048) S256x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x2048.size a ≤ S8192x2048.size a
  hwx0_5 : ∀ i : grid0.Coords, EltTy.bits .f32 = 32 ∨ (Rect.block (s := S8192x2048) S256x2048.size (cc0_transform_5 i) (hinb0_5 i)).WholeWords (EltTy.packing .f32)

variable [Facts₀]

def dot_S256x2048_S2048x2048_S256x2048_1_0_0_1_n_n : DotDims S256x2048 S2048x2048 S256x2048 where
  lhsContracting := [1]
  rhsContracting := [0]
  lhsNonContracting := [0]
  rhsNonContracting := [1]
  lhsBatch := []
  rhsBatch := []
  wf := dot_S256x2048_S2048x2048_S256x2048_1_0_0_1_n_n_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2048x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3_0) S256x2048.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_1) S256x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S2048x2048 : Shape := ⟨2, ![2048, 2048]⟩
abbrev S2048 : Shape := ⟨1, ![2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 24
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048x2048, .f32⟩
  | .hbm, ⟨3, _⟩ => ⟨S2048, .f32⟩
  | .hbm, ⟨4, _⟩ => ⟨S8192x2048, .f32⟩
  | .hbm, ⟨5, _⟩ => ⟨S1x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S8192x2048, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x2048, .f32⟩
  | .hbm, ⟨18, _⟩ => ⟨S8192x2048, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S_, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  reducesTo_S8192x2048_S8192_d1 : S8192x2048.ReducesTo [1] S8192
  h_S_ : 0 < S_.numel
  bcast_S8192_S8192x1_0 : S8192.BroadcastsInDim S8192x1 (![0] : Fin 1 → Fin S8192x1.rank)
  bcast_S_S8192x2048 : S_.BroadcastsInDim S8192x2048 (![] : Fin 0 → Fin S8192x2048.rank)
  bcast_S8192x1_S8192x2048_0_1 : S8192x1.BroadcastsInDim S8192x2048 (![0, 1] : Fin 2 → Fin S8192x2048.rank)
  dot_S8192x2048_S2048x2048_S8192x2048_1_1_0_0_n_n_wf : DotDims.WF S8192x2048 S2048x2048 S8192x2048 [1] [1] [0] [0] [] []

variable [Facts₀]

def dot_S8192x2048_S2048x2048_S8192x2048_1_1_0_0_n_n : DotDims S8192x2048 S2048x2048 S8192x2048 where
  lhsContracting := [1]
  rhsContracting := [1]
  lhsNonContracting := [0]
  rhsNonContracting := [0]
  lhsBatch := []
  rhsBatch := []
  wf := dot_S8192x2048_S2048x2048_S8192x2048_1_1_0_0_n_n_wf

class Facts : Prop extends Facts₀ where

variable [Facts]
-- ==== Proof.Reflection.lean ====
/-
  A Householder reflection of each row, after an affine map of a second row — the mathematics both programs compute.

  For a row `u`, a weight matrix `w` (read `w c k`) and a bias `β`, the affine image is
  `a c = (∑ k, u k * w c k) + β c`.  With `d = ∑ c, a c * x c` and `s = ∑ c, a c * a c` the reflected row is
  `x c - (2 · a c) · (d / s)`; a second arrangement scales the quotient instead, `x c - a c · ((2 · d) / s)`.

  On the extended reals the two arrangements agree at EVERY input, with no finiteness needed:
  * where `s ≠ 0` the quotient is the product with `s⁻¹`, and the two sides differ by the association and order of a
    product of four factors — multiplication is commutative and associative there;
  * where `s = 0`, a sum of squares vanishes only if every square does (squares are nonnegative, also at the infinities,
    and a sum of nonnegative terms is above each of them), and a square vanishes only at zero (no zero divisors); so
    `a c = 0`, and both products are `0` whatever the quotient `0 / 0` is read as.
  The constant `2` is never evaluated: the law holds for any factor in its place.
-/
import Idealize.ShloMosaic.PureOps.Ideal.Laws
import Idealize.ShloMosaic.Lib.ValueIdx

noncomputable section

namespace Cert.Reflection

open Idealize.ShloMosaic Idealize.ShloMosaic.ValueIdx

/-! ## Squares and their sums on the extended reals -/

/-- A square is nonnegative, at the infinities too. -/
theorem mul_self_nonneg (a : EReal) : 0 ≤ a * a :=
  EReal.mul_nonneg_iff.mpr (by
    rcases le_total 0 a with h | h
    · exact Or.inl ⟨h, h⟩
    · exact Or.inr ⟨h, h⟩)

/-- A sum of squares is zero only if every term's base is zero. -/
theorem eq_zero_of_sum_mul_self_eq_zero {ι : Type} [Fintype ι] (a : ι → EReal) (h : ∑ c, a c * a c = 0) (c : ι) : a c = 0 :=
  mul_self_eq_zero.mp
    ((Finset.sum_eq_zero_iff_of_nonneg fun i _ => mul_self_nonneg (a i)).mp h c (Finset.mem_univ c))

/-! ## The law that joins the two arrangements -/

/-- Scaling the numerator of a quotient, or scaling the factor in front of it, is one product — provided the factor in
    front vanishes where the denominator does. -/
theorem mul_div_scale (two a d s : EReal) (h : s = 0 → a = 0) :
    a * Ideal.div (two * d) s = (two * a) * Ideal.div d s := by
  by_cases hs : s = 0
  · rw [h hs, mul_zero, zero_mul, zero_mul]
  · unfold Ideal.div
    rw [if_neg hs, if_neg hs, mul_assoc two d, ← mul_assoc a two, mul_comm a two]

/-! ## The row functions -/

variable {K D : ℕ}

/-- The affine image of the row `u`: entry `c` is the product of `u` with row `c` of the weights, plus the bias. -/
def lin (u : Fin K → EReal) (w : Fin D → Fin K → EReal) (β : Fin D → EReal) (c : Fin D) : EReal :=
  (∑ k, u k * w c k) + β c

/-- The row `x` reflected across the hyperplane normal to `a`, the factor `two` on the normal's entry. -/
def mirror (two : EReal) (x a : Fin D → EReal) (c : Fin D) : EReal :=
  x c - (two * a c) * Ideal.div (∑ c', a c' * x c') (∑ c', a c' * a c')

/-- The same with the factor on the inner product. -/
def mirrorScaled (two : EReal) (x a : Fin D → EReal) (c : Fin D) : EReal :=
  x c - a c * Ideal.div (two * ∑ c', a c' * x c') (∑ c', a c' * a c')

/-- The two arrangements are one function. -/
theorem mirrorScaled_eq (two : EReal) (x a : Fin D → EReal) (c : Fin D) :
    mirrorScaled two x a c = mirror two x a c := by
  unfold mirrorScaled mirror
  rw [mul_div_scale two (a c) _ _ fun hs => eq_zero_of_sum_mul_self_eq_zero a hs c]

/-! ## The two result arrays, as functions of the four argument arrays -/

/-- The second result: every row of `V` mapped through `W` and `b`. -/
def mapped (V : (⟨2, ![8192, 2048]⟩ : Shape).Idx → EReal) (W : (⟨2, ![2048, 2048]⟩ : Shape).Idx → EReal)
    (b : (⟨1, ![2048]⟩ : Shape).Idx → EReal) : (⟨2, ![8192, 2048]⟩ : Shape).Idx → EReal :=
  fun i => lin (fun k : Fin 2048 => V (ix2 (i 0) k)) (fun (c k : Fin 2048) => W (ix2 c k)) (fun c : Fin 2048 => b (ix1 c)) (i 1)

/-- The first result: every row of `X` reflected across the mapped row of `V`. -/
def mirrored (two : EReal) (X V : (⟨2, ![8192, 2048]⟩ : Shape).Idx → EReal) (W : (⟨2, ![2048, 2048]⟩ : Shape).Idx → EReal)
    (b : (⟨1, ![2048]⟩ : Shape).Idx → EReal) : (⟨2, ![8192, 2048]⟩ : Shape).Idx → EReal :=
  fun i => mirror two (fun k : Fin 2048 => X (ix2 (i 0) k))
    (lin (fun k : Fin 2048 => V (ix2 (i 0) k)) (fun (c k : Fin 2048) => W (ix2 c k)) (fun c : Fin 2048 => b (ix1 c))) (i 1)

end Cert.Reflection

end
-- ==== Proof.RefValue.lean ====
/-
  The reference's two array results, read index by index, are the row functions of `Reflection`.

  Row `r`, column `c` of the mapped array is the product of row `r` of `v` with row `c` of `W` (the einsum contracts
  the LAST axis of both operands) plus `b c`.  The reflected array at `(r, c)` is `x - (2 · a c) · (d / s)`, where the two
  keepdims sums `d` and `s` are read at the column entry `(r, 0)`, each a host sum from the zero word, which is `0`.
-/
import proofs.«129861_j49082886259470_2_alg».proof.Proof.Gen.ReferenceIdeal.Read
import proofs.«129861_j49082886259470_2_alg».proof.Proof.Reflection

noncomputable section

namespace Cert.ReferenceIdeal.RefValue

open Cert.ReferenceIdeal Cert.ReferenceIdeal.Read Cert.Reflection
open Idealize.ShloMosaic Idealize.ShloMosaic.ValueIdx

/-! ## The composed index maps of the stages, by coordinates -/

theorem lidx_v0 (r : Fin 8192) (c k : Fin 2048) : lidx_main_v0 (ix2 r c) k = ix2 r k :=
  funext fun a => by match a with | ⟨0, _⟩ => rfl | ⟨1, _⟩ => rfl
theorem ridx_v0 (r : Fin 8192) (c k : Fin 2048) : ridx_main_v0 (ix2 r c) k = ix2 c k :=
  funext fun a => by match a with | ⟨0, _⟩ => rfl | ⟨1, _⟩ => rfl
theorem idx_bias (r : Fin 8192) (c : Fin 2048) : idx_main_v1 (idx_main_v2 (ix2 r c)) = ix1 c :=
  funext fun a => by match a with | ⟨0, _⟩ => rfl
theorem idx_dot_row (r : Fin 8192) (c k : Fin 2048) : idx_main_v8 (idx_main_v9 (idx_main_v13 (ix2 r c))) k = ix2 r k :=
  funext fun a => by match a with | ⟨0, _⟩ => rfl | ⟨1, _⟩ => rfl
theorem idx_sq_row (r : Fin 8192) (c k : Fin 2048) : idx_main_v5 (idx_main_v6 (idx_main_v13 (ix2 r c))) k = ix2 r k :=
  funext fun a => by match a with | ⟨0, _⟩ => rfl | ⟨1, _⟩ => rfl

/-! ## The mapped row -/

/-- `v @ W.T + b` at `(r, c)`. -/
theorem v3_at (x1 : S8192x2048.Idx → EReal) (x2 : S2048x2048.Idx → EReal) (x3 : S2048.Idx → EReal) (r : Fin 8192) (c : Fin 2048) :
    val_main_v3 (F := Ideal) x1 x2 x3 (ix2 r c)
      = lin (fun k : Fin 2048 => x1 (ix2 r k)) (fun (c k : Fin 2048) => x2 (ix2 c k)) (fun c : Fin 2048 => x3 (ix1 c)) c := by
  rw [val_main_v3_apply, val_main_v0_apply, val_main_v2_apply, val_main_v1_apply]
  simp only [lidx_v0, ridx_v0, idx_bias]
  rfl

/-- The second result is the mapped array. -/
theorem v3_eq (x1 : S8192x2048.Idx → EReal) (x2 : S2048x2048.Idx → EReal) (x3 : S2048.Idx → EReal) :
    val_main_v3 (F := Ideal) x1 x2 x3 = mapped x1 x2 x3 := by
  funext i
  obtain ⟨r, c, rfl⟩ : ∃ (r : Fin 8192) (c : Fin 2048), i = ix2 r c := ⟨i 0, i 1, eq_ix2 i⟩
  exact v3_at x1 x2 x3 r c

/-! ## The reflected row -/

/-- `x - 2 * v_new * (v_dot_x / v_sqr)` at `(r, c)`. -/
theorem v15_at (x0 x1 : S8192x2048.Idx → EReal) (x2 : S2048x2048.Idx → EReal) (x3 : S2048.Idx → EReal) (r : Fin 8192) (c : Fin 2048) :
    val_main_v15 (F := Ideal) x0 x1 x2 x3 (ix2 r c)
      = mirror (Ideal.ofBits .f32 0x40000000#32) (fun k : Fin 2048 => x0 (ix2 r k))
          (lin (fun k : Fin 2048 => x1 (ix2 r k)) (fun (c k : Fin 2048) => x2 (ix2 c k)) (fun c : Fin 2048 => x3 (ix1 c))) c := by
  rw [val_main_v15_apply, val_main_v14_apply, val_main_v11_apply, val_main_v10_apply, val_main_cst_1_apply,
    val_main_v13_apply, val_main_v12_apply, val_main_v9_apply, val_main_v8_apply, val_main_v6_apply, val_main_v5_apply,
    val_main_cst_0_apply, val_main_cst_apply]
  simp only [val_main_v7_apply, val_main_v4_apply, idx_dot_row, idx_sq_row, v3_at]
  unfold mirror
  simp only [Ideal.ofBits_def, Ideal.subf_def, Ideal.mulf_def, Ideal.hostDivf_def, Ideal.ofBits_zero_f32, zero_add]

/-- The first result is the reflected array. -/
theorem v15_eq (x0 x1 : S8192x2048.Idx → EReal) (x2 : S2048x2048.Idx → EReal) (x3 : S2048.Idx → EReal) :
    val_main_v15 (F := Ideal) x0 x1 x2 x3 = mirrored (Ideal.ofBits .f32 0x40000000#32) x0 x1 x2 x3 := by
  funext i
  obtain ⟨r, c, rfl⟩ : ∃ (r : Fin 8192) (c : Fin 2048), i = ix2 r c := ⟨i 0, i 1, eq_ix2 i⟩
  exact v15_at x0 x1 x2 x3 r c

end Cert.ReferenceIdeal.RefValue

end
-- ==== Proof.LibKeepdims.lean ====
/-
  Row reductions that keep their axis, read at an index.

  A kernel's `jnp.max(x, axis=-1, keepdims=True)` or `jnp.sum(…, keepdims=True)` on an `[a, b]` array prints as a lane
  reduction to `[a]`, a shape cast to the column `[a, 1]` and a broadcast of the column back to `[a, b]`.  Read at
  `(r, c)` each step names one index of its operand: the broadcast reads the column at `(r, 0)`, the cast reads the vector
  at `r`, and the reduction at `r` runs over the row `k ↦ (r, k)` — as a fold of `max` from the accumulator's value for a
  maximum, as a plain sum for an addition.  All at any extents `a`, `b` and any float format; the indices are written by
  coordinates (`ix1`, `ix2`), so each lemma applies to a printed operation by unification.
-/
import Idealize.ShloMosaic.Lib.ValueLayout
import Idealize.ShloMosaic.PureOps.Ideal.Laws

namespace Idealize.ShloMosaic.ValueIdx

open Idealize.ShloMosaic

variable {α : Type}

/-- An `[a]` vector cast to the column `[a, 1]` reads, at `(i, u)`, the vector at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- Over a reduction of `[a, b]` along its last axis, the source index above `r` with `k` on the dropped axis is `(r, k)`. -/
theorem lift_row {a b : ℕ} (h : (⟨2, ![a, b]⟩ : Shape).Reduces [(1 : Fin 2)] ⟨1, ![a]⟩) (r : Fin a) (k : Fin b) :
    h.lift (ix1 r) k = ix2 r k :=
  funext fun c => Fin.ext (by match c with | ⟨0, _⟩ => rfl | ⟨1, _⟩ => rfl)

variable {φ : FTy}

/-- A lane maximum of an `[a, b]` array at row `r`, at the exact values: the fold of `max` from the accumulator's value over the row. -/
theorem multiReduction_maximumf_row {a b : ℕ} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.maximumf.neutral φ hφ) (r : Fin a) :
    multiReduction .maximumf [(1 : Fin 2)] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  exact congrArg (Finset.fold max (Ideal.ofBits φ acc) · (Finset.univ : Finset (Fin b))) (funext fun k => congrArg src (lift_row h r k))

/-- A lane sum of an `[a, b]` array at row `r`, at the exact values: the sum over the row. -/
theorem multiReduction_add_row {a b : ℕ} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.add.neutral φ hφ) (r : Fin a) :
    multiReduction .add [(1 : Fin 2)] ⟨1, ![a]⟩ src acc h hφ hacc (ix1 r) = ∑ k : Fin b, src (ix2 r k) := by
  refine (Ideal.multiReduction_add_single src acc h hφ hacc (ix1 r)).trans ?_
  exact Finset.sum_congr rfl fun k _ => congrArg src (lift_row h r k)

end Idealize.ShloMosaic.ValueIdx
-- ==== Proof.KernelRow.lean ====
/-
  What the kernel body stores, read at one entry of the block.

  The body loads a `[256, 2048]` block of `x` and of `v`, the whole transposed weight matrix `Wt` (`Wt k c = W c k`) and
  the bias as one row `[1, 2048]`.  Its second store is `v · Wt + bias`: at `(p, q)` the sum over `k` of `v (p, k) · Wt (k, q)`
  (the matrix unit's product into a zero accumulator; a change of float format is the identity) plus the bias row at `q`.
  Its first store is the reflection with the factor `2` on the inner product: the two lane sums of a row are sums over the
  row, the `[256] → [256, 1]` cast and the broadcast back to `[256, 2048]` read the row's entry again.
-/
import proofs.«129861_j49082886259470_2_alg».proof.Proof.Gen.KernelIdeal.Skeleton
import proofs.«129861_j49082886259470_2_alg».proof.Proof.Reflection
import proofs.«129861_j49082886259470_2_alg».proof.Proof.LibKeepdims
import Idealize.ShloMosaic.Lib.ValueLayout
import Idealize.ShloMosaic.Lib.Pipeline.Value
import Idealize.ShloMosaic.PureOps.Ideal.Laws

noncomputable section

namespace Cert.KernelIdeal.RowValue

open Cert.KernelIdeal Cert.KernelIdeal.Gen Cert.Reflection
open Idealize.ShloMosaic Idealize.ShloMosaic.ValueIdx

/-- The body's one matrix product: `[256, 2048] × [2048, 2048]`, the left operand's last axis against the right's first. -/
abbrev DD : DotDims S256x2048 S2048x2048 S256x2048 := dot_S256x2048_S2048x2048_S256x2048_1_0_0_1_n_n

/-! ## The product's operand indices, coordinate by coordinate -/

theorem lhs_0 (i : S256x2048.Idx) (q : DD.contr.Idx) : (DD.lhsIdx i q 0).val = (i 0).val := by
  unfold DotDims.lhsIdx
  rw [dif_neg (show ¬(0 : Fin S256x2048.rank) ∈ DD.lhsBatch by decide), dif_pos (show (0 : Fin S256x2048.rank) ∈ DD.lhsNonContracting by decide)]
  rfl
theorem lhs_1 (i : S256x2048.Idx) (q : DD.contr.Idx) : (DD.lhsIdx i q 1).val = (q ⟨0, by decide⟩).val :=
  DD.lhsIdx_val_of_single rfl i q
theorem rhs_0 (i : S256x2048.Idx) (q : DD.contr.Idx) : (DD.rhsIdx i q 0).val = (q ⟨0, by decide⟩).val :=
  DD.rhsIdx_val_of_single rfl i q
theorem rhs_1 (i : S256x2048.Idx) (q : DD.contr.Idx) : (DD.rhsIdx i q 1).val = (i 1).val := by
  unfold DotDims.rhsIdx
  rw [dif_neg (show ¬(1 : Fin S2048x2048.rank) ∈ DD.rhsBatch by decide), dif_pos (show (1 : Fin S2048x2048.rank) ∈ DD.rhsNonContracting by decide)]
  rfl

/-- The product into a zero accumulator at `(p, q)`: row `p` of the left operand against column `q` of the right. -/
theorem matmul_at (lhs : FVec Ideal S256x2048 .bf16) (rhs : FVec Ideal S2048x2048 .bf16) (p : Fin 256) (q : Fin 2048) :
    matmul DD none lhs rhs (constant (F := Ideal) S256x2048 .f32 0x00000000#32) (ix2 p q)
      = ∑ k : Fin 2048, lhs (ix2 p k) * rhs (ix2 k q) := by
  refine (Ideal.matmul_constant_zero_apply DD none lhs rhs (ix2 p q)).trans ?_
  rw [← Equiv.sum_comp (contrEquiv1 DD 2048 rfl rfl).symm]
  refine Finset.sum_congr rfl fun k _ => ?_
  have hk := contrEquiv1_symm_val DD 2048 rfl rfl k
  have el : DD.lhsIdx (ix2 p q) ((contrEquiv1 DD 2048 rfl rfl).symm k) = ix2 p k := funext fun a => Fin.ext (by
    match a with
    | ⟨0, _⟩ => exact lhs_0 _ _
    | ⟨1, _⟩ => exact (lhs_1 _ _).trans hk)
  have er : DD.rhsIdx (ix2 p q) ((contrEquiv1 DD 2048 rfl rfl).symm k) = ix2 k q := funext fun a => Fin.ext (by
    match a with
    | ⟨0, _⟩ => exact (rhs_0 _ _).trans hk
    | ⟨1, _⟩ => exact rhs_1 _ _)
  rw [el, er]

/-! ## The two stored values -/

/-- The second store at `(p, q)`: row `p` of the `v` block through the transposed weights, plus the bias row. -/
theorem pay1_at (x1 : Vec Ideal S256x2048 .f32) (x2 : Vec Ideal S2048x2048 .bf16) (x3 : Vec Ideal S1x2048 .f32)
    (p : Fin 256) (q : Fin 2048) :
    k0_pay1 (F := Ideal) x1 x2 x3 (ix2 p q)
      = lin (fun k : Fin 2048 => x1 (ix2 p k)) (fun (c k : Fin 2048) => x2 (ix2 k c)) (fun c : Fin 2048 => x3 (ix2 (0 : Fin 1) c)) q := by
  unfold k0_pay1 lin
  refine congrArg₂ (· + ·) ?_ ?_
  · refine (matmul_at _ _ p q).trans (Finset.sum_congr rfl fun k _ => ?_)
    exact congrArg (x1 (ix2 p k) * ·) (congrFun (shapeCast_self x2 _) (ix2 k q))
  · refine (broadcastTo_1b_ab_apply _ _ p q).trans ?_
    exact congrFun (shapeCast_self x3 _) _

/-- The first store at `(p, q)`: row `p` of the `x` block reflected across the second store's row `p`, the factor `2` on the
    inner product. -/
theorem pay2_at (x0 x1 : Vec Ideal S256x2048 .f32) (x2 : Vec Ideal S2048x2048 .bf16) (x3 : Vec Ideal S1x2048 .f32)
    (p : Fin 256) (q : Fin 2048) :
    k0_pay2 (F := Ideal) x0 x1 x2 x3 (ix2 p q)
      = mirrorScaled (Ideal.ofBits .f32 0x40000000#32) (fun k : Fin 2048 => x0 (ix2 p k))
          (fun c : Fin 2048 => k0_pay1 (F := Ideal) x1 x2 x3 (ix2 p c)) q := by
  unfold k0_pay2 mirrorScaled
  generalize k0_pay1 (F := Ideal) x1 x2 x3 = A
  refine congrArg (fun z => x0 (ix2 p q) - A (ix2 p q) * z) ?_
  refine (broadcastTo_a1_ab_apply _ _ p q).trans ?_
  refine congrArg₂ Ideal.div (congrArg (Ideal.ofBits .f32 0x40000000#32 * ·) ?_) ?_
  · refine (shapeCast_a_a1_apply _ _ p 0).trans ?_
    exact multiReduction_add_row _ _ _ _ _ p
  · refine (shapeCast_a_a1_apply _ _ p 0).trans ?_
    exact multiReduction_add_row _ _ _ _ _ p

/-! ## One grid point's stores as entries of the whole-array functions

Stated over variables: the loaded blocks `x0 … x3` are any vectors that read the argument arrays where the point's
windows say — row `p` of the two row blocks is row `r` of `X` and of `Vv`, the weight block is `W` transposed, the bias
block's one row is `b`. -/

/-- The second store at `(p, q)` is the mapped array at `(r, q)`. -/
theorem point_mapped (Vv : S8192x2048.Idx → EReal) (W : S2048x2048.Idx → EReal) (b : S2048.Idx → EReal)
    (x1 : Vec Ideal S256x2048 .f32) (x2 : Vec Ideal S2048x2048 .bf16) (x3 : Vec Ideal S1x2048 .f32)
    (r : Fin 8192) (p : Fin 256)
    (h1 : ∀ k : Fin 2048, x1 (ix2 p k) = Vv (ix2 r k))
    (h2 : ∀ k q : Fin 2048, x2 (ix2 k q) = W (ix2 q k))
    (h3 : ∀ q : Fin 2048, x3 (ix2 (0 : Fin 1) q) = b (ix1 q)) (q : Fin 2048) :
    k0_pay1 (F := Ideal) x1 x2 x3 (ix2 p q) = mapped Vv W b (ix2 r q) := by
  rw [pay1_at]
  simp only [h1, h2, h3]
  rfl

/-- The first store at `(p, q)` is the reflected array at `(r, q)`: the factor moves from the inner product to the normal. -/
theorem point_mirrored (X Vv : S8192x2048.Idx → EReal) (W : S2048x2048.Idx → EReal) (b : S2048.Idx → EReal)
    (x0 x1 : Vec Ideal S256x2048 .f32) (x2 : Vec Ideal S2048x2048 .bf16) (x3 : Vec Ideal S1x2048 .f32)
    (r : Fin 8192) (p : Fin 256)
    (h0 : ∀ k : Fin 2048, x0 (ix2 p k) = X (ix2 r k))
    (h1 : ∀ k : Fin 2048, x1 (ix2 p k) = Vv (ix2 r k))
    (h2 : ∀ k q : Fin 2048, x2 (ix2 k q) = W (ix2 q k))
    (h3 : ∀ q : Fin 2048, x3 (ix2 (0 : Fin 1) q) = b (ix1 q)) (q : Fin 2048) :
    k0_pay2 (F := Ideal) x0 x1 x2 x3 (ix2 p q) = mirrored (Ideal.ofBits .f32 0x40000000#32) X Vv W b (ix2 r q) := by
  rw [pay2_at]
  simp only [pay1_at, h0, h1, h2, h3]
  rw [mirrorScaled_eq]
  rfl

end Cert.KernelIdeal.RowValue

end
-- ==== Proof.KernelArrays.lean ====
/-
  From what each grid point writes back to the two result arrays, and the run of the whole program.

  Point `t` of the 32 works on rows `256 t … 256 t + 255`: its `x` and `v` blocks are those rows of the two arguments, its
  weight block is the whole matrix the host lines before the call prepared — `W` transposed (the rounding to bf16 in
  front of the transpose is the identity on exact values) — and its bias block the whole `[1, 2048]` row the host
  reshaped `b` into.  So what the point writes back to either result is rows `256 t …` of ONE function of the argument
  arrays, the blocks tile the arrays, and each array ends holding that function.  The one host line after the call writes
  the scalar zero.
-/
import proofs.«129861_j49082886259470_2_alg».proof.Proof.Gen.KernelIdeal.Frame
import proofs.«129861_j49082886259470_2_alg».proof.Proof.KernelRow
import Idealize.ShloMosaic.Lib.Pipeline.Value
import Idealize.ShloMosaic.Lib.ValueLayout
import Idealize.ShloMosaic.Lib.StableHlo.Run

noncomputable section

namespace Cert.KernelIdeal.ArrayValue

open Cert.KernelIdeal Cert.KernelIdeal.Gen Cert.KernelIdeal.RowValue Cert.Reflection
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## What the host lines before the call prepared -/

/-- The weight operand is `W`, rounded (the identity here) and transposed. -/
theorem V_wt (c : Dev nD) : (V m c main_v1 : S2048x2048.Idx → EReal)
    = transpose S2048x2048 [1, 0] (truncf (F := Ideal) .bf16 (m ((c : Thread nD τ).loc main_arg2) : FVec Ideal S2048x2048 .f32) bitsLt_bf16_f32) transposes_S2048x2048_S2048x2048_1_0 := by
  show StableHlo.after hostOps0 (fun b => m (c, b)) (Proc.devRef .tc main_v1) = _
  after_results

/-- Its entry `(k, q)` is `W (q, k)`. -/
theorem wt_at (c : Dev nD) (k q : Fin 2048) :
    (V m c main_v1 : S2048x2048.Idx → EReal) (ix2 k q) = (m ((c : Thread nD τ).loc main_arg2) : S2048x2048.Idx → EReal) (ix2 q k) := by
  rw [V_wt]
  exact transpose_ix2_apply _ _ k q

/-- The bias operand is `b` as one row. -/
theorem V_bias (c : Dev nD) : (V m c main_v2 : S1x2048.Idx → EReal)
    = shapeCast S1x2048 (m ((c : Thread nD τ).loc main_arg3) : S2048.Idx → EReal) shapeCasts_S2048_S1x2048 := by
  show StableHlo.after hostOps0 (fun b => m (c, b)) (Proc.devRef .tc main_v2) = _
  after_results
  rfl

/-- Its entry `(0, q)` is `b q`. -/
theorem bias_at (c : Dev nD) (u : Fin 1) (q : Fin 2048) :
    (V m c main_v2 : S1x2048.Idx → EReal) (ix2 u q) = (m ((c : Thread nD τ).loc main_arg3) : S2048.Idx → EReal) (ix1 q) := by
  rw [V_bias]
  exact shapeCast_a_1a_apply _ _ u q

/-! ## The windows' blocks at a point -/

/-- The index maps over the grid: the two row inputs and the two outputs move down one block per point, the weight and
    bias windows stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- Row `p` of the `x` block at point `t` is row `256 t + p` of `x`. -/
theorem iblk0_at (c : Dev nD) (t : Fin cfg0.N) (p : Fin 256) (k : Fin 2048) (r : Fin 8192) (hr : r.val = t.val * 256 + p.val) :
    (iblk m c 0 t : Vec Ideal S256x2048 .f32) (ix2 p k) = (m ((c : Thread nD τ).loc main_arg0) : S8192x2048.Idx → EReal) (ix2 r k) := by
  obtain ⟨e0, e1, -⟩ := idx_facts t
  show V m c main_arg0 (((cfg0.win 0).blk t).view.emb (ix2 p k)) = _
  rw [V_main_arg0]
  refine congrArg _ (funext fun a => Fin.ext ?_)
  match a with
  | ⟨0, _⟩ => show win0_0.index t (0 : Fin 2) * 256 + 1 * p.val = r.val; rw [e0, hr]; omega
  | ⟨1, _⟩ => show win0_0.index t (1 : Fin 2) * 2048 + 1 * k.val = k.val; rw [e1]; omega

/-- Row `p` of the `v` block at point `t` is row `256 t + p` of `v`. -/
theorem iblk1_at (c : Dev nD) (t : Fin cfg0.N) (p : Fin 256) (k : Fin 2048) (r : Fin 8192) (hr : r.val = t.val * 256 + p.val) :
    (iblk m c 1 t : Vec Ideal S256x2048 .f32) (ix2 p k) = (m ((c : Thread nD τ).loc main_arg1) : S8192x2048.Idx → EReal) (ix2 r k) := by
  obtain ⟨-, -, e0, e1, -⟩ := idx_facts t
  show V m c main_arg1 (((cfg0.win 1).blk t).view.emb (ix2 p k)) = _
  rw [V_main_arg1]
  refine congrArg _ (funext fun a => Fin.ext ?_)
  match a with
  | ⟨0, _⟩ => show win0_1.index t (0 : Fin 2) * 256 + 1 * p.val = r.val; rw [e0, hr]; omega
  | ⟨1, _⟩ => show win0_1.index t (1 : Fin 2) * 2048 + 1 * k.val = k.val; rw [e1]; omega

/-- The weight block at any point is the whole prepared operand: `W` transposed. -/
theorem iblk2_at (c : Dev nD) (t : Fin cfg0.N) (k q : Fin 2048) :
    (iblk m c 2 t : Vec Ideal S2048x2048 .bf16) (ix2 k q) = (m ((c : Thread nD τ).loc main_arg2) : S2048x2048.Idx → EReal) (ix2 q k) := by
  obtain ⟨-, -, -, -, e0, e1, -⟩ := idx_facts t
  show V m c main_v1 (((cfg0.win 2).blk t).view.emb (ix2 k q)) = _
  refine (congrArg (V m c main_v1) (funext fun a => Fin.ext ?_)).trans (wt_at m c k q)
  match a with
  | ⟨0, _⟩ => show win0_2.index t (0 : Fin 2) * 2048 + 1 * k.val = k.val; rw [e0]; omega
  | ⟨1, _⟩ => show win0_2.index t (1 : Fin 2) * 2048 + 1 * q.val = q.val; rw [e1]; omega

/-- The bias block at any point is the whole prepared row: `b`. -/
theorem iblk3_at (c : Dev nD) (t : Fin cfg0.N) (q : Fin 2048) :
    (iblk m c 3 t : Vec Ideal S1x2048 .f32) (ix2 (0 : Fin 1) q) = (m ((c : Thread nD τ).loc main_arg3) : S2048.Idx → EReal) (ix1 q) := by
  obtain ⟨-, -, -, -, -, -, e0, e1, -⟩ := idx_facts t
  show V m c main_v2 (((cfg0.win 3).blk t).view.emb (ix2 (0 : Fin 1) q)) = _
  refine (congrArg (V m c main_v2) (funext fun a => Fin.ext ?_)).trans (bias_at m c 0 q)
  match a with
  | ⟨0, _⟩ => show win0_3.index t (0 : Fin 2) * 1 + 1 * 0 = 0; rw [e0]
  | ⟨1, _⟩ => show win0_3.index t (1 : Fin 2) * 2048 + 1 * q.val = q.val; rw [e1]; omega

/-! ## What a point writes back -/

/-- Point `t` writes back, to the first result, rows `256 t …` of the reflected array. -/
theorem flushed4_eq (c : Dev nD) (t : Fin cfg0.N) :
    (dats m 0 c).flushed 4 t = ((cfg0.win 4).blk t).view.read (Elt Ideal)
      (mirrored (Ideal.ofBits .f32 0x40000000#32) (m ((c : Thread nD τ).loc main_arg0)) (m ((c : Thread nD τ).loc main_arg1))
        (m ((c : Thread nD τ).loc main_arg2)) (m ((c : Thread nD τ).loc main_arg3))) := by
  show (cfg0.win 4).cut (grid0.coords t) ((dats m 0 c).after 4 t) = _
  rw [after0_4]
  unfold out0_4
  rw [View.canon_unit_zero hz]
  simp only [View.ld_unit_zero (S := S256x2048) hz, View.ld_unit_zero (S := S2048x2048) hz, View.ld_unit_zero (S := S1x2048) hz]
  funext j
  have hN : cfg0.N = 32 := N_0
  have ht : t.val < 32 := by have := t.isLt; omega
  have hj0 : (j 0).val < 256 := (j 0).isLt
  have hj1 : (j 1).val < 2048 := (j 1).isLt
  obtain ⟨-, -, -, -, -, -, -, -, e0, e1, -⟩ := idx_facts t
  have hj : j = ix2 (⟨(j 0).val, hj0⟩ : Fin 256) (⟨(j 1).val, hj1⟩ : Fin 2048) :=
    funext fun a => by match a with | ⟨0, _⟩ => rfl | ⟨1, _⟩ => rfl
  have hemb : ((cfg0.win 4).blk t).view.emb j
      = ix2 (⟨t.val * 256 + (j 0).val, by omega⟩ : Fin 8192) (⟨(j 1).val, hj1⟩ : Fin 2048) := funext fun a => Fin.ext (by
    match a with
    | ⟨0, _⟩ => show win0_4.index t (0 : Fin 2) * 256 + 1 * (j 0).val = t.val * 256 + (j 0).val; rw [e0]; omega
    | ⟨1, _⟩ => show win0_4.index t (1 : Fin 2) * 2048 + 1 * (j 1).val = (j 1).val; rw [e1]; omega)
  show k0_pay2 (iblk m c 0 t) (iblk m c 1 t) (iblk m c 2 t) (iblk m c 3 t) j = mirrored _ _ _ _ _ (((cfg0.win 4).blk t).view.emb j)
  rw [hemb]
  refine (congrArg (k0_pay2 (iblk m c 0 t) (iblk m c 1 t) (iblk m c 2 t) (iblk m c 3 t)) hj).trans ?_
  exact point_mirrored (m ((c : Thread nD τ).loc main_arg0)) (m ((c : Thread nD τ).loc main_arg1))
    (m ((c : Thread nD τ).loc main_arg2)) (m ((c : Thread nD τ).loc main_arg3))
    (iblk m c 0 t) (iblk m c 1 t) (iblk m c 2 t) (iblk m c 3 t)
    ⟨t.val * 256 + (j 0).val, by omega⟩ ⟨(j 0).val, hj0⟩
    (fun k => iblk0_at m c t _ k _ rfl) (fun k => iblk1_at m c t _ k _ rfl)
    (fun k q => iblk2_at m c t k q) (fun q => iblk3_at m c t q) ⟨(j 1).val, hj1⟩

/-- Point `t` writes back, to the second result, rows `256 t …` of the mapped array. -/
theorem flushed5_eq (c : Dev nD) (t : Fin cfg0.N) :
    (dats m 0 c).flushed 5 t = ((cfg0.win 5).blk t).view.read (Elt Ideal)
      (mapped (m ((c : Thread nD τ).loc main_arg1)) (m ((c : Thread nD τ).loc main_arg2)) (m ((c : Thread nD τ).loc main_arg3))) := by
  show (cfg0.win 5).cut (grid0.coords t) ((dats m 0 c).after 5 t) = _
  rw [after0_5]
  unfold out0_5
  rw [View.canon_unit_zero hz]
  simp only [View.ld_unit_zero (S := S256x2048) hz, View.ld_unit_zero (S := S2048x2048) hz, View.ld_unit_zero (S := S1x2048) hz]
  funext j
  have hN : cfg0.N = 32 := N_0
  have ht : t.val < 32 := by have := t.isLt; omega
  have hj0 : (j 0).val < 256 := (j 0).isLt
  have hj1 : (j 1).val < 2048 := (j 1).isLt
  obtain ⟨-, -, -, -, -, -, -, -, -, -, e0, e1⟩ := idx_facts t
  have hj : j = ix2 (⟨(j 0).val, hj0⟩ : Fin 256) (⟨(j 1).val, hj1⟩ : Fin 2048) :=
    funext fun a => by match a with | ⟨0, _⟩ => rfl | ⟨1, _⟩ => rfl
  have hemb : ((cfg0.win 5).blk t).view.emb j
      = ix2 (⟨t.val * 256 + (j 0).val, by omega⟩ : Fin 8192) (⟨(j 1).val, hj1⟩ : Fin 2048) := funext fun a => Fin.ext (by
    match a with
    | ⟨0, _⟩ => show win0_5.index t (0 : Fin 2) * 256 + 1 * (j 0).val = t.val * 256 + (j 0).val; rw [e0]; omega
    | ⟨1, _⟩ => show win0_5.index t (1 : Fin 2) * 2048 + 1 * (j 1).val = (j 1).val; rw [e1]; omega)
  show k0_pay1 (iblk m c 1 t) (iblk m c 2 t) (iblk m c 3 t) j = mapped _ _ _ (((cfg0.win 5).blk t).view.emb j)
  rw [hemb]
  refine (congrArg (k0_pay1 (iblk m c 1 t) (iblk m c 2 t) (iblk m c 3 t)) hj).trans ?_
  exact point_mapped (m ((c : Thread nD τ).loc main_arg1))
    (m ((c : Thread nD τ).loc main_arg2)) (m ((c : Thread nD τ).loc main_arg3))
    (iblk m c 1 t) (iblk m c 2 t) (iblk m c 3 t)
    ⟨t.val * 256 + (j 0).val, by omega⟩ ⟨(j 0).val, hj0⟩
    (fun k => iblk1_at m c t _ k _ rfl)
    (fun k q => iblk2_at m c t k q) (fun q => iblk3_at m c t q) ⟨(j 1).val, hj1⟩

/-! ## The blocks tile the arrays -/

theorem mem_blk4 (t : Fin cfg0.N) (i : S8192x2048.Idx) :
    i ∈ ((cfg0.win 4).blk t).view.set ↔ ∀ a : Fin 2, win0_4.index t a * S256x2048.size a ≤ (i a).val ∧ (i a).val < win0_4.index t a * S256x2048.size a + S256x2048.size a := by
  show i ∈ ((View.whole main_v3_0).slice (win0_4.rect t)).set ↔ _
  rw [View.set_slice_whole, Rect.mem_set_unit]
  exact Iff.rfl

theorem mem_blk5 (t : Fin cfg0.N) (i : S8192x2048.Idx) :
    i ∈ ((cfg0.win 5).blk t).view.set ↔ ∀ a : Fin 2, win0_5.index t a * S256x2048.size a ≤ (i a).val ∧ (i a).val < win0_5.index t a * S256x2048.size a + S256x2048.size a := by
  show i ∈ ((View.whole main_v3_1).slice (win0_5.rect t)).set ↔ _
  rw [View.set_slice_whole, Rect.mem_set_unit]
  exact Iff.rfl

/-- Row `r` is in the block of point `r / 256`. -/
theorem cover4 (i : S8192x2048.Idx) : ∃ t : Fin cfg0.N, (cfg0.win 4).flush t = true ∧ i ∈ ((cfg0.win 4).blk t).view.set := by
  have hi0 : (i 0).val < 8192 := (i 0).isLt
  have hi1 : (i 1).val < 2048 := (i 1).isLt
  have hN : cfg0.N = 32 := N_0
  have hlt : (i 0).val / 256 < cfg0.N := by rw [hN]; omega
  obtain ⟨-, -, -, -, -, -, -, -, e0, e1, -⟩ := idx_facts ⟨(i 0).val / 256, hlt⟩
  refine ⟨⟨(i 0).val / 256, hlt⟩, flush0_4 _, ?_⟩
  rw [mem_blk4]
  intro a
  match a with
  | ⟨0, _⟩ =>
    show win0_4.index ⟨(i 0).val / 256, hlt⟩ (0 : Fin 2) * 256 ≤ (i 0).val ∧ (i 0).val < win0_4.index ⟨(i 0).val / 256, hlt⟩ (0 : Fin 2) * 256 + 256
    rw [e0]; show (i 0).val / 256 * 256 ≤ (i 0).val ∧ (i 0).val < (i 0).val / 256 * 256 + 256; omega
  | ⟨1, _⟩ =>
    show win0_4.index ⟨(i 0).val / 256, hlt⟩ (1 : Fin 2) * 2048 ≤ (i 1).val ∧ (i 1).val < win0_4.index ⟨(i 0).val / 256, hlt⟩ (1 : Fin 2) * 2048 + 2048
    rw [e1]; omega

theorem cover5 (i : S8192x2048.Idx) : ∃ t : Fin cfg0.N, (cfg0.win 5).flush t = true ∧ i ∈ ((cfg0.win 5).blk t).view.set := by
  have hi0 : (i 0).val < 8192 := (i 0).isLt
  have hi1 : (i 1).val < 2048 := (i 1).isLt
  have hN : cfg0.N = 32 := N_0
  have hlt : (i 0).val / 256 < cfg0.N := by rw [hN]; omega
  obtain ⟨-, -, -, -, -, -, -, -, -, -, e0, e1⟩ := idx_facts ⟨(i 0).val / 256, hlt⟩
  refine ⟨⟨(i 0).val / 256, hlt⟩, flush0_5 _, ?_⟩
  rw [mem_blk5]
  intro a
  match a with
  | ⟨0, _⟩ =>
    show win0_5.index ⟨(i 0).val / 256, hlt⟩ (0 : Fin 2) * 256 ≤ (i 0).val ∧ (i 0).val < win0_5.index ⟨(i 0).val / 256, hlt⟩ (0 : Fin 2) * 256 + 256
    rw [e0]; show (i 0).val / 256 * 256 ≤ (i 0).val ∧ (i 0).val < (i 0).val / 256 * 256 + 256; omega
  | ⟨1, _⟩ =>
    show win0_5.index ⟨(i 0).val / 256, hlt⟩ (1 : Fin 2) * 2048 ≤ (i 1).val ∧ (i 1).val < win0_5.index ⟨(i 0).val / 256, hlt⟩ (1 : Fin 2) * 2048 + 2048
    rw [e1]; omega

/-! ## The arrays after the run -/

/-- The first result array ends as the reflected array. -/
theorem final4 (c : Dev nD) : (dats m 0 c).arrAt 4 cfg0.N
    = mirrored (Ideal.ofBits .f32 0x40000000#32) (m ((c : Thread nD τ).loc main_arg0)) (m ((c : Thread nD τ).loc main_arg1))
        (m ((c : Thread nD τ).loc main_arg2)) (m ((c : Thread nD τ).loc main_arg3)) :=
  (dats m 0 c).arrAt_eq_of_cover 4 _ (fun t _ => flushed4_eq m c t) cover4

/-- The second result array ends as the mapped array. -/
theorem final5 (c : Dev nD) : (dats m 0 c).arrAt 5 cfg0.N
    = mapped (m ((c : Thread nD τ).loc main_arg1)) (m ((c : Thread nD τ).loc main_arg2)) (m ((c : Thread nD τ).loc main_arg3)) :=
  (dats m 0 c).arrAt_eq_of_cover 5 _ (fun t _ => flushed5_eq m c t) cover5

/-- The host line after the call leaves the scalar zero in its buffer. -/
theorem tail_zero (c : Dev nD) :
    Pipeline.afterTail₀ cfgs (dats m) 0 (V0 m) [hostOps1] c main_cst = constant (F := Ideal) S_ .f32 0x00000000#32 := by
  unfold Pipeline.afterTail₀
  show StableHlo.after hostOps1 _ (Proc.devRef .tc main_cst) = _
  after_results

/-! ## The run, read -/

/-- Every execution of the program terminates with the three results at these values and the arguments unchanged. -/
theorem run : θ_run defs (onTc (τ := τ) (main (F := Ideal))) ⟨m, fun _ => 0, ρ⟩ fun r => ∀ c : Dev nD,
      r.2.mem ((c : Thread nD τ).loc main_v3_0)
        = mirrored (Ideal.ofBits .f32 0x40000000#32) (m ((c : Thread nD τ).loc main_arg0)) (m ((c : Thread nD τ).loc main_arg1))
            (m ((c : Thread nD τ).loc main_arg2)) (m ((c : Thread nD τ).loc main_arg3))
      ∧ r.2.mem ((c : Thread nD τ).loc main_v3_1)
        = mapped (m ((c : Thread nD τ).loc main_arg1)) (m ((c : Thread nD τ).loc main_arg2)) (m ((c : Thread nD τ).loc main_arg3))
      ∧ r.2.mem ((c : Thread nD τ).loc main_cst) = constant (F := Ideal) S_ .f32 0x00000000#32
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1 4).trans (final4 m c), ((h c).1 5).trans (final5 m c),
      ((h c).2 main_cst (Pipeline.mem_restRefs_of main_cst (by decide) (by decide))).trans (tail_zero m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.ArrayValue

end
-- ==== Proof.lean ====
/-
  Every row of `x` reflected across a hyperplane: the Pallas kernel against its jnp reference, on the extended reals.

  Both programs map each row of `v` through the affine map `a = v · Wᵀ + b` (the second result), and reflect the row of
  `x` across the hyperplane normal to `a`: `x - 2 a (a · x) / (a · a)` (the first result); the third result is the scalar
  zero.  The kernel works on 32 blocks of 256 rows, multiplies by the weight matrix the host transposed beforehand (after
  a rounding to bf16, which is the identity on exact values), and puts the factor `2` on the inner product,
  `x - a · ((2 (a · x)) / (a · a))`; the reference contracts the last axis of both operands and puts the factor on the
  normal, `x - (2 a) · ((a · x) / (a · a))`.

  * `Reflection`: the row functions, and the law that the two arrangements agree at every extended real — also where
    `a · a = 0`, since then every entry of `a` is zero and both products vanish;
  * `RefValue`: the reference's stages read at an index are those row functions;
  * `KernelRow`: what the kernel body stores at one entry of a block;
  * `KernelArrays`: the blocks each grid point writes back tile the result arrays, so each array ends as ONE function of
    the arguments; the program's run.
  The three frames are the generated ones (the reference's from its generated run); the idealization rewrote nothing.
-/
import proofs.«129861_j49082886259470_2_alg».proof.Defs
import proofs.«129861_j49082886259470_2_alg».proof.Proof.Gen.Kernel
import proofs.«129861_j49082886259470_2_alg».proof.Proof.Gen.Kernel.Skeleton
import proofs.«129861_j49082886259470_2_alg».proof.Proof.Gen.Kernel.Launch
import proofs.«129861_j49082886259470_2_alg».proof.Proof.Gen.Kernel.Points
import proofs.«129861_j49082886259470_2_alg».proof.Proof.Gen.Kernel.Frame
import proofs.«129861_j49082886259470_2_alg».proof.Proof.Gen.KernelIdeal
import proofs.«129861_j49082886259470_2_alg».proof.Proof.Gen.KernelIdeal.Skeleton
import proofs.«129861_j49082886259470_2_alg».proof.Proof.Gen.KernelIdeal.Launch
import proofs.«129861_j49082886259470_2_alg».proof.Proof.Gen.KernelIdeal.Points
import proofs.«129861_j49082886259470_2_alg».proof.Proof.Gen.KernelIdeal.Frame
import proofs.«129861_j49082886259470_2_alg».proof.Proof.Gen.ReferenceIdeal
import proofs.«129861_j49082886259470_2_alg».proof.Proof.Gen.ReferenceIdeal.Run
import proofs.«129861_j49082886259470_2_alg».proof.Proof.Gen.ReferenceIdeal.Read
import proofs.«129861_j49082886259470_2_alg».proof.Proof.Gen.Pre_finite_inputs
import proofs.«129861_j49082886259470_2_alg».proof.Proof.RefValue
import proofs.«129861_j49082886259470_2_alg».proof.Proof.KernelArrays
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does the kernel on exact values. -/
theorem frame_ideal : Cert.frame_KernelIdeal := fun m ρ _ => Cert.KernelIdeal.Gen.frame m ρ

/-- The reference runs and keeps its arguments: its run, the results dropped. -/
theorem frame_ref : Cert.frame_ReferenceIdeal := fun m ρ _ =>
  (θ_run Cert.ReferenceIdeal.defs _ _).mono (fun _ h c => (h c).2.2.2) (Cert.ReferenceIdeal.Value.run (F := Ideal) m ρ)

/-- From memories that agree on the arguments both programs end with the reflected array, the mapped array and the
    scalar zero. -/
theorem algebraic : Cert.algebraic_KernelIdeal_ReferenceIdeal := by
  intro m ρ m' ρ' _ hagree
  refine ⟨_, _, _, Cert.KernelIdeal.ArrayValue.run m ρ, ?_⟩
  refine (θ_run Cert.ReferenceIdeal.defs _ _).mono
    (fun _ h c => ⟨(h c).1.trans ?_, (h c).2.1.trans ?_, (h c).2.2.1.trans ?_, (h c).2.2.2⟩)
    (Cert.ReferenceIdeal.Value.run (F := Ideal) m' ρ')
  · rw [Cert.ReferenceIdeal.Read.val_main_v15_eq, Cert.ReferenceIdeal.RefValue.v15_eq,
      (hagree c).1, (hagree c).2.1, (hagree c).2.2.1, (hagree c).2.2.2]
  · rw [Cert.ReferenceIdeal.Read.val_main_v3_eq, Cert.ReferenceIdeal.RefValue.v3_eq,
      (hagree c).2.1, (hagree c).2.2.1, (hagree c).2.2.2]
  · rfl

theorem claim : Cert.Claim :=
  ⟨Cert.Kernel.Gen.facts, Cert.KernelIdeal.Gen.facts, Cert.ReferenceIdeal.Gen.facts, Cert.Pre_finite_inputs.Gen.facts,
    frame_kernel, frame_ideal, frame_ref, trivial, algebraic⟩

end Cert.Proof

end
